-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : FVec F S256x128 .f32) (main_arg2 : FVec F S128 .f32) (main_arg3 : FVec F S128x64 .f32) (main_arg4 : FVec F S64 .f32) (main_arg5 : IVec S800000 32) (main_arg6 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 62
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .bf16⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .bf16⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x1, .f32⟩
  | .hbm, ⟨42, _⟩ => ⟨S1x128, .f32⟩
  | .hbm, ⟨43, _⟩ => ⟨S50000x1, .f32⟩
  | .hbm, ⟨44, _⟩ => ⟨S50000x64, .bf16⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .bf16⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S50000x1, .f32⟩
  | .hbm, ⟨60, _⟩ => ⟨S1x64, .f32⟩
  | .hbm, ⟨61, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x1, .f32⟩
  | .local _ .vmem, ⟨14, _⟩ => ⟨S5000x1, .f32⟩
  | .local _ .vmem, ⟨15, _⟩ => ⟨S5000x64, .bf16⟩
  | .local _ .vmem, ⟨16, _⟩ => ⟨S5000x64, .bf16⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .bf16 = 32 ∨ (Rect.block (s := S50000x64) S5000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000x1, .f32⟩
  | .hbm, ⟨45, _⟩ => ⟨S800000x128, .f32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x64, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x64, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000, .f32⟩
  | .hbm, ⟨79, _⟩ => ⟨S800000x1, .f32⟩
  | .hbm, ⟨80, _⟩ => ⟨S800000x64, .f32⟩
  | .hbm, ⟨81, _⟩ => ⟨S800000x64, .f32⟩
  | .hbm, ⟨82, _⟩ => ⟨S_, .f32⟩
  | .hbm, ⟨83, _⟩ => ⟨S50000x64, .f32⟩
  | .hbm, ⟨84, _⟩ => ⟨S800000x1, .i32⟩
  | .hbm, ⟨85, _⟩ => ⟨S50000x64, .f32⟩
  | .hbm, ⟨86, _⟩ => ⟨S50000x1, .f32⟩
  | .hbm, ⟨87, _⟩ => ⟨S50000x64, .f32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call0_cst : Ref sig .tc := ⟨.hbm, 57, rfl⟩
abbrev main_call0_v0 : Ref sig .tc := ⟨.hbm, 58, rfl⟩
abbrev main_v40 : Ref sig .tc := ⟨.hbm, 59, rfl⟩
abbrev main_v41 : Ref sig .tc := ⟨.hbm, 60, rfl⟩
abbrev main_c_8 : Ref sig .tc := ⟨.hbm, 61, rfl⟩
abbrev main_v42 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KRun.lean ====
/-
  The idealized kernel's whole run with its result kept. The program is three grid-pipelined calls among stretches of
  host operations; its memory at each boundary is a fold from the launch memory: a stretch applies its operations,
  a call leaves each of its arrays at what its write-backs fold to and every other buffer as it found it. Every weakly
  fair execution terminates, nothing faulting, with the result buffer holding the last boundary's contents at that
  buffer and the seven arguments as launched.
-/
import proofs.«162312_j31576599560550_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the three calls and the host stretches between them, from any memory with zero counters: it ends with
    the result buffer at the last boundary's contents and every argument array as launched. -/
theorem run_result : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

/-- The result buffer is the last call's output array: what the ten write-backs of its output window fold to. -/
theorem result_arr (c : Dev nD) : W6 m ρ c (Proc.devRef .tc main_v43) = (dat2 (V5 m ρ) c).arrAt 3 cfg2.N :=
  W6_arr m ρ c 3

end Cert.KernelIdeal.Whole

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  What each of the three kernel bodies stores, read at an entry (p, q) of its block, at the exact instance.
  First body: the rows-by-columns product of the block of features with the weights, each row p scaled by the
  column vector's entry (p, 0). Second body: the product of relu(agg · column + bias row) with the second weights,
  each row scaled by another column's entry (p, 0). Third body: agg · column + bias row. A change of float format is the
  identity, so the products of the rounded operands are the products of the operands.
-/
import proofs.«162312_j31576599560550_2_alg».proof.Proof.Gen.KernelIdeal.Skeleton
import proofs.«162312_j31576599560550_2_alg».proof.Proof.LibDot
import proofs.«162312_j31576599560550_2_alg».proof.Proof.LibColumn
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Bodies

open Cert.KernelIdeal Cert.KernelIdeal.Gen Idealize.ShloMosaic Idealize.ShloMosaic.ValueIdx

/-- The first product contracts axis 1 of a [5000, 256] block with axis 0 of the [256, 128] weights. -/
theorem plain_dot0 : Cert.LibDot.Plain dot_S5000x256_S256x128_S5000x128_1_0_0_1_n_n where
  hrank := rfl
  hs := rfl
  hl0 := fun j k => by
    unfold DotDims.lhsIdx
    rw [dif_neg (show ¬(0 : Fin S5000x256.rank) ∈ dot_S5000x256_S256x128_S5000x128_1_0_0_1_n_n.lhsBatch by decide),
      dif_pos (show (0 : Fin S5000x256.rank) ∈ dot_S5000x256_S256x128_S5000x128_1_0_0_1_n_n.lhsNonContracting by decide)]
    rfl
  hl1 := fun j k => dot_S5000x256_S256x128_S5000x128_1_0_0_1_n_n.lhsIdx_val_of_single rfl j k
  hr0 := fun j k => dot_S5000x256_S256x128_S5000x128_1_0_0_1_n_n.rhsIdx_val_of_single rfl j k
  hr1 := fun j k => by
    unfold DotDims.rhsIdx
    rw [dif_neg (show ¬(1 : Fin S256x128.rank) ∈ dot_S5000x256_S256x128_S5000x128_1_0_0_1_n_n.rhsBatch by decide),
      dif_pos (show (1 : Fin S256x128.rank) ∈ dot_S5000x256_S256x128_S5000x128_1_0_0_1_n_n.rhsNonContracting by decide)]
    rfl

/-- The second product contracts axis 1 of a [5000, 128] block with axis 0 of the [128, 64] weights. -/
theorem plain_dot1 : Cert.LibDot.Plain dot_S5000x128_S128x64_S5000x64_1_0_0_1_n_n where
  hrank := rfl
  hs := rfl
  hl0 := fun j k => by
    unfold DotDims.lhsIdx
    rw [dif_neg (show ¬(0 : Fin S5000x128.rank) ∈ dot_S5000x128_S128x64_S5000x64_1_0_0_1_n_n.lhsBatch by decide),
      dif_pos (show (0 : Fin S5000x128.rank) ∈ dot_S5000x128_S128x64_S5000x64_1_0_0_1_n_n.lhsNonContracting by decide)]
    rfl
  hl1 := fun j k => dot_S5000x128_S128x64_S5000x64_1_0_0_1_n_n.lhsIdx_val_of_single rfl j k
  hr0 := fun j k => dot_S5000x128_S128x64_S5000x64_1_0_0_1_n_n.rhsIdx_val_of_single rfl j k
  hr1 := fun j k => by
    unfold DotDims.rhsIdx
    rw [dif_neg (show ¬(1 : Fin S128x64.rank) ∈ dot_S5000x128_S128x64_S5000x64_1_0_0_1_n_n.rhsBatch by decide),
      dif_pos (show (1 : Fin S128x64.rank) ∈ dot_S5000x128_S128x64_S5000x64_1_0_0_1_n_n.rhsNonContracting by decide)]
    rfl

/-- The first body's stored block at (p, q): row p of the feature block times column q of the weights, scaled by the
    column vector's entry at row p. -/
theorem pay0_apply (x0 : FVec Ideal S5000x256 .f32) (x1 : FVec Ideal S256x128 .f32) (x2 : FVec Ideal S5000x1 .f32)
    (p : Fin 5000) (q : Fin 128) :
    k0_pay1 (F := Ideal) x0 x1 x2 (ix2 p q)
      = (∑ k : Fin 256, x0 (ix2 p k) * x1 (ix2 k q)) * x2 (ix2 p (0 : Fin 1)) := by
  show matmul dot_S5000x256_S256x128_S5000x128_1_0_0_1_n_n none (truncf .bf16 x0 bitsLt_bf16_f32)
        (truncf .bf16 x1 bitsLt_bf16_f32) (constant (F := Ideal) S5000x128 .f32 0x00000000#32) (ix2 p q)
      * broadcastTo S5000x128 (shapeCast S5000x1 x2 shapeCasts_S5000x1_S5000x1) broadcasts_S5000x1_S5000x128 (ix2 p q) = _
  rw [Cert.LibDot.matmul_ix2 plain_dot0, broadcastTo_a1_ab_apply, shapeCast_self]
  rfl

/-- The third body's stored block at (p, q): the aggregate times the column's entry at row p, plus the bias row's
    entry at column q. -/
theorem pay2_apply (x0 : FVec Ideal S5000x64 .f32) (x1 : FVec Ideal S5000x1 .f32) (x2 : FVec Ideal S1x64 .f32)
    (p : Fin 5000) (q : Fin 64) :
    k2_pay1 (F := Ideal) x0 x1 x2 (ix2 p q) = x0 (ix2 p q) * x1 (ix2 p (0 : Fin 1)) + x2 (ix2 (0 : Fin 1) q) := by
  show shapeCast S5000x64 x0 shapeCasts_S5000x64_S5000x64 (ix2 p q)
        * broadcastTo S5000x64 (shapeCast S5000x1 x1 shapeCasts_S5000x1_S5000x1) broadcasts_S5000x1_S5000x64 (ix2 p q)
      + broadcastTo S5000x64 (shapeCast S1x64 x2 shapeCasts_S1x64_S1x64) broadcasts_S1x64_S5000x64 (ix2 p q) = _
  rw [broadcastTo_a1_ab_apply, broadcastTo_1b_ab_apply, shapeCast_self, shapeCast_self, shapeCast_self]

/-- The hidden layer's entry: relu of the aggregate times the column's entry plus the bias row's entry. -/
def hidden (agg col bias : EReal) : EReal := max (agg * col + bias) (Ideal.ofBits .f32 0x00000000#32)

/-- The second body's stored block at (p, q): row p of the hidden layer times column q of the weights, scaled by the
    second column vector's entry at row p. -/
theorem pay1_apply (x0 : FVec Ideal S5000x128 .f32) (x1 : FVec Ideal S5000x1 .f32) (x2 : FVec Ideal S1x128 .f32)
    (x3 : FVec Ideal S128x64 .f32) (x4 : FVec Ideal S5000x1 .f32) (p : Fin 5000) (q : Fin 64) :
    k1_pay1 (F := Ideal) x0 x1 x2 x3 x4 (ix2 p q)
      = (∑ k : Fin 128, hidden (x0 (ix2 p k)) (x1 (ix2 p (0 : Fin 1))) (x2 (ix2 (0 : Fin 1) k)) * x3 (ix2 k q))
          * x4 (ix2 p (0 : Fin 1)) := by
  show matmul dot_S5000x128_S128x64_S5000x64_1_0_0_1_n_n none
        (truncf .bf16 (maximumf (addf (mulf (shapeCast S5000x128 x0 shapeCasts_S5000x128_S5000x128)
            (broadcastTo S5000x128 (shapeCast S5000x1 x1 shapeCasts_S5000x1_S5000x1) broadcasts_S5000x1_S5000x128))
            (broadcastTo S5000x128 (shapeCast S1x128 x2 shapeCasts_S1x128_S1x128) broadcasts_S1x128_S5000x128))
          (broadcast S5000x128 (Scalar.ofBits (F := Ideal) .f32 0x00000000#32))) bitsLt_bf16_f32)
        (truncf .bf16 x3 bitsLt_bf16_f32) (constant (F := Ideal) S5000x64 .f32 0x00000000#32) (ix2 p q)
      * broadcastTo S5000x64 (shapeCast S5000x1 x4 shapeCasts_S5000x1_S5000x1) broadcasts_S5000x1_S5000x64 (ix2 p q) = _
  rw [Cert.LibDot.matmul_ix2 plain_dot1, broadcastTo_a1_ab_apply]
  simp only [shapeCast_self]
  refine congrArg (· * x4 (ix2 p (0 : Fin 1))) (Finset.sum_congr rfl fun k _ => ?_)
  refine congrArg (· * x3 (ix2 k q)) ?_
  show max (x0 (ix2 p k) * broadcastTo S5000x128 x1 broadcasts_S5000x1_S5000x128 (ix2 p k)
      + broadcastTo S5000x128 x2 broadcasts_S1x128_S5000x128 (ix2 p k)) (Ideal.ofBits .f32 0x00000000#32) = _
  rw [broadcastTo_a1_ab_apply, broadcastTo_1b_ab_apply]
  rfl

end Cert.KernelIdeal.Bodies

end
-- ==== Proof.Spec.lean ====
/-
  The three calls' output arrays as functions of the arrays each call finds, index by index, on the extended reals.
  With x the features, w and w' the weights, col and col' column vectors over the nodes, bias rows b and b':
    first call   out(r, j) = (Σ_k x(r, k) · w(k, j)) · col(r, 0)
    second call  out(r, j) = (Σ_k relu(agg(r, k) · col(r, 0) + b(0, k)) · w'(k, j)) · col'(r, 0)
    third call   out(r, j) = agg(r, j) · col(r, 0) + b'(0, j)
-/
import proofs.«162312_j31576599560550_2_alg».proof.Proof.Payload

noncomputable section

namespace Cert.KernelIdeal.Layers

open Cert.KernelIdeal Idealize.ShloMosaic Idealize.ShloMosaic.ValueIdx

/-- Rows times columns, each row scaled by a column vector's entry. -/
def scaledProduct0 (x : S50000x256.Idx → EReal) (w : S256x128.Idx → EReal) (col : S50000x1.Idx → EReal) :
    S50000x128.Idx → EReal :=
  fun i => (∑ k : Fin 256, x (ix2 (i 0) k) * w (ix2 k (i 1))) * col (ix2 (i 0) (0 : Fin 1))

/-- The hidden layer's rows times columns, each row scaled by a second column vector's entry. -/
def scaledHidden1 (agg : S50000x128.Idx → EReal) (col : S50000x1.Idx → EReal) (bias : S1x128.Idx → EReal)
    (w : S128x64.Idx → EReal) (col' : S50000x1.Idx → EReal) : S50000x64.Idx → EReal :=
  fun i => (∑ k : Fin 128, Bodies.hidden (agg (ix2 (i 0) k)) (col (ix2 (i 0) (0 : Fin 1))) (bias (ix2 (0 : Fin 1) k))
      * w (ix2 k (i 1))) * col' (ix2 (i 0) (0 : Fin 1))

/-- The aggregate scaled row by row, plus the bias row. -/
def affine2 (agg : S50000x64.Idx → EReal) (col : S50000x1.Idx → EReal) (bias : S1x64.Idx → EReal) :
    S50000x64.Idx → EReal :=
  fun i => agg i * col (ix2 (i 0) (0 : Fin 1)) + bias (ix2 (0 : Fin 1) (i 1))

end Cert.KernelIdeal.Layers

end
-- ==== Proof.Layer0.lean ====
/-
  The first call's output array as one function of the arrays it finds, at the exact instance. The grid has ten
  points; point t stages rows 5000·t … 5000·t + 4999 of the features and of the scaling column, the whole weights, and
  writes back rows 5000·t … 5000·t + 4999 of the output. Entry (r, j) of what point t writes is the body's stored
  value at the row's position inside the block, which reads the features' row r, the weights' column j and the column's
  entry at row r: it does not depend on t. The ten row blocks tile the 50000 rows, so the output array ends as
      out(r, j) = (Σ_k x(r, k) · w(k, j)) · col(r, 0).
-/
import proofs.«162312_j31576599560550_2_alg».proof.Proof.Gen.KernelIdeal.Frame
import proofs.«162312_j31576599560550_2_alg».proof.Proof.Spec
import Idealize.ShloMosaic.Lib.Pipeline.Value

noncomputable section

namespace Cert.KernelIdeal.Layers

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block indices at a grid point: the row-blocked windows sit at block row t, the weights at block (0, 0). -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the scaled product of the arrays the call finds. -/
theorem flushed0 (c : Dev nD) (t : Fin cfg0.N) :
    (dat0 V c).flushed 3 t = ((cfg0.win 3).blk t).view.read (Elt Ideal)
      (scaledProduct0 (V c main_arg0) (V c main_arg1) (V c main_v13)) := by
  show (cfg0.win 3).cut (grid0.coords t) ((dat0 V c).after 3 t) = _
  rw [after0_3]
  unfold out0_3
  rw [View.canon_unit_zero zero_offsets]
  simp only [View.ld_unit_zero (S := S5000x256) zero_offsets, View.ld_unit_zero (S := S256x128) zero_offsets,
    View.ld_unit_zero (S := S5000x1) zero_offsets]
  obtain ⟨e0, e1, e2, e3, e4, e5, e6, e7⟩ := index0 t
  funext j
  obtain ⟨p, q, rfl⟩ : ∃ (p : Fin 5000) (q : Fin 128), j = ix2 p q := ⟨j 0, j 1, eq_ix2 j⟩
  refine (Bodies.pay0_apply (iblk0 V c 0 t) (iblk0 V c 1 t) (iblk0 V c 2 t) p q).trans ?_
  show _ = scaledProduct0 (V c main_arg0) (V c main_arg1) (V c main_v13) (((cfg0.win 3).blk t).view.emb (ix2 p q))
  unfold scaledProduct0
  refine congrArg₂ (· * ·) (Finset.sum_congr rfl fun k _ => congrArg₂ (· * ·) ?_ ?_) ?_
  · show V c main_arg0 (((cfg0.win 0).blk t).view.emb (ix2 p k)) = _
    refine congrArg (V c main_arg0) (funext fun a => Fin.ext ?_)
    match a with
    | ⟨0, _⟩ =>
      show win0_0.index t (0 : Fin 2) * 5000 + 1 * p.val = win0_3.index t (0 : Fin 2) * 5000 + 1 * p.val
      omega
    | ⟨1, _⟩ =>
      show win0_0.index t (1 : Fin 2) * 256 + 1 * k.val = k.val
      omega
  · show V c main_arg1 (((cfg0.win 1).blk t).view.emb (ix2 k q)) = _
    refine congrArg (V c main_arg1) (funext fun a => Fin.ext ?_)
    match a with
    | ⟨0, _⟩ =>
      show win0_1.index t (0 : Fin 2) * 256 + 1 * k.val = k.val
      omega
    | ⟨1, _⟩ =>
      show win0_1.index t (1 : Fin 2) * 128 + 1 * q.val = win0_3.index t (1 : Fin 2) * 128 + 1 * q.val
      omega
  · show V c main_v13 (((cfg0.win 2).blk t).view.emb (ix2 p (0 : Fin 1))) = _
    refine congrArg (V c main_v13) (funext fun a => Fin.ext ?_)
    match a with
    | ⟨0, _⟩ =>
      show win0_2.index t (0 : Fin 2) * 5000 + 1 * p.val = win0_3.index t (0 : Fin 2) * 5000 + 1 * p.val
      omega
    | ⟨1, _⟩ =>
      show win0_2.index t (1 : Fin 2) * 1 + 1 * 0 = 0
      omega

/-- An index of the output array lies in point t's block iff each coordinate lies in the block's range. -/
theorem mem_block0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v14).slice (win0_3.rect t)).set ↔ _
  rw [View.set_slice_whole, Rect.mem_set_unit]
  exact Iff.rfl

/-- Every row of the output lies in the block of the point that is its row divided by 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 5000, by show (i 0).val / 5000 < grid0.N; rw [N_0]; omega⟩, flush0_3 _, ?_⟩
  rw [mem_block0]
  obtain ⟨e0, e1, e2, e3, e4, e5, e6, e7⟩ := index0 ⟨(i 0).val / 5000, by show (i 0).val / 5000 < grid0.N; rw [N_0]; omega⟩
  have e6' : win0_3.index ⟨(i 0).val / 5000, by show (i 0).val / 5000 < grid0.N; rw [N_0]; omega⟩ (0 : Fin 2) = (i 0).val / 5000 := e6
  intro a
  match a with
  | ⟨0, _⟩ =>
    show win0_3.index _ (0 : Fin 2) * 5000 ≤ (i 0).val ∧ (i 0).val < win0_3.index _ (0 : Fin 2) * 5000 + 5000
    omega
  | ⟨1, _⟩ =>
    show win0_3.index _ (1 : Fin 2) * 128 ≤ (i 1).val ∧ (i 1).val < win0_3.index _ (1 : Fin 2) * 128 + 128
    omega

/-- The first call's output array after its ten points: the scaled product of the arrays it finds. -/
theorem final0 (c : Dev nD) :
    (dat0 V c).arrAt 3 cfg0.N = scaledProduct0 (V c main_arg0) (V c main_arg1) (V c main_v13) :=
  (dat0 V c).arrAt_eq_of_cover 3 _ (fun t _ => flushed0 V c t) cover0

end Cert.KernelIdeal.Layers

end
-- ==== Proof.Layer1.lean ====
/-
  The second call's output array as one function of the arrays it finds, at the exact instance. Point t of the ten
  stages rows 5000·t … 5000·t + 4999 of the aggregate and of the two column vectors, the whole bias row and the whole
  second weights, and writes back the same rows of the output. Entry (r, j) of what it writes reads the aggregate's
  row r, the columns' entries at row r, the bias row and the weights' column j, whatever t is; the ten row blocks tile
  the 50000 rows, so the output array ends as
      out(r, j) = (Σ_k relu(agg(r, k) · col(r, 0) + b(0, k)) · w(k, j)) · col'(r, 0).
-/
import proofs.«162312_j31576599560550_2_alg».proof.Proof.Gen.KernelIdeal.Frame
import proofs.«162312_j31576599560550_2_alg».proof.Proof.Spec
import Idealize.ShloMosaic.Lib.Pipeline.Value

noncomputable section

namespace Cert.KernelIdeal.Layers

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

theorem hidden_congr {a a' b b' c c' : EReal} (ha : a = a') (hb : b = b') (hc : c = c') :
    Bodies.hidden a b c = Bodies.hidden a' b' c' := by rw [ha, hb, hc]

/-- The block indices at a grid point: the row-blocked windows sit at block row t, the bias row and the weights at
    block (0, 0). -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- What point t writes back is block t of the scaled hidden product of the arrays the call finds. -/
theorem flushed1 (c : Dev nD) (t : Fin cfg1.N) :
    (dat1 V c).flushed 5 t = ((cfg1.win 5).blk t).view.read (Elt Ideal)
      (scaledHidden1 (V c main_v25) (V c main_v26) (V c main_v27) (V c main_arg3) (V c main_v28)) := by
  show (cfg1.win 5).cut (grid1.coords t) ((dat1 V c).after 5 t) = _
  rw [after1_5]
  unfold out1_5
  rw [View.canon_unit_zero zero_offsets1]
  simp only [View.ld_unit_zero (S := S5000x128) zero_offsets1, View.ld_unit_zero (S := S5000x1) zero_offsets1,
    View.ld_unit_zero (S := S1x128) zero_offsets1, View.ld_unit_zero (S := S128x64) zero_offsets1]
  obtain ⟨e0, e1, e2, e3, e4, e5, e6, e7, e8, e9, e10, e11⟩ := index1 t
  funext j
  obtain ⟨p, q, rfl⟩ : ∃ (p : Fin 5000) (q : Fin 64), j = ix2 p q := ⟨j 0, j 1, eq_ix2 j⟩
  refine (Bodies.pay1_apply (iblk1 V c 0 t) (iblk1 V c 1 t) (iblk1 V c 2 t) (iblk1 V c 3 t) (iblk1 V c 4 t) p q).trans ?_
  show _ = scaledHidden1 (V c main_v25) (V c main_v26) (V c main_v27) (V c main_arg3) (V c main_v28)
    (((cfg1.win 5).blk t).view.emb (ix2 p q))
  unfold scaledHidden1
  refine congrArg₂ (· * ·) (Finset.sum_congr rfl fun k _ => congrArg₂ (· * ·) (hidden_congr ?_ ?_ ?_) ?_) ?_
  · show V c main_v25 (((cfg1.win 0).blk t).view.emb (ix2 p k)) = _
    refine congrArg (V c main_v25) (funext fun a => Fin.ext ?_)
    match a with
    | ⟨0, _⟩ =>
      show win1_0.index t (0 : Fin 2) * 5000 + 1 * p.val = win1_5.index t (0 : Fin 2) * 5000 + 1 * p.val
      omega
    | ⟨1, _⟩ =>
      show win1_0.index t (1 : Fin 2) * 128 + 1 * k.val = k.val
      omega
  · show V c main_v26 (((cfg1.win 1).blk t).view.emb (ix2 p (0 : Fin 1))) = _
    refine congrArg (V c main_v26) (funext fun a => Fin.ext ?_)
    match a with
    | ⟨0, _⟩ =>
      show win1_1.index t (0 : Fin 2) * 5000 + 1 * p.val = win1_5.index t (0 : Fin 2) * 5000 + 1 * p.val
      omega
    | ⟨1, _⟩ =>
      show win1_1.index t (1 : Fin 2) * 1 + 1 * 0 = 0
      omega
  · show V c main_v27 (((cfg1.win 2).blk t).view.emb (ix2 (0 : Fin 1) k)) = _
    refine congrArg (V c main_v27) (funext fun a => Fin.ext ?_)
    match a with
    | ⟨0, _⟩ =>
      show win1_2.index t (0 : Fin 2) * 1 + 1 * 0 = 0
      omega
    | ⟨1, _⟩ =>
      show win1_2.index t (1 : Fin 2) * 128 + 1 * k.val = k.val
      omega
  · show V c main_arg3 (((cfg1.win 3).blk t).view.emb (ix2 k q)) = _
    refine congrArg (V c main_arg3) (funext fun a => Fin.ext ?_)
    match a with
    | ⟨0, _⟩ =>
      show win1_3.index t (0 : Fin 2) * 128 + 1 * k.val = k.val
      omega
    | ⟨1, _⟩ =>
      show win1_3.index t (1 : Fin 2) * 64 + 1 * q.val = win1_5.index t (1 : Fin 2) * 64 + 1 * q.val
      omega
  · show V c main_v28 (((cfg1.win 4).blk t).view.emb (ix2 p (0 : Fin 1))) = _
    refine congrArg (V c main_v28) (funext fun a => Fin.ext ?_)
    match a with
    | ⟨0, _⟩ =>
      show win1_4.index t (0 : Fin 2) * 5000 + 1 * p.val = win1_5.index t (0 : Fin 2) * 5000 + 1 * p.val
      omega
    | ⟨1, _⟩ =>
      show win1_4.index t (1 : Fin 2) * 1 + 1 * 0 = 0
      omega

/-- An index of the output array lies in point t's block iff each coordinate lies in the block's range. -/
theorem mem_block1 (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v29).slice (win1_5.rect t)).set ↔ _
  rw [View.set_slice_whole, Rect.mem_set_unit]
  exact Iff.rfl

/-- Every row of the output lies in the block of the point that is its row divided by 5000. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  refine ⟨⟨(i 0).val / 5000, by show (i 0).val / 5000 < grid1.N; rw [N_1]; omega⟩, flush1_5 _, ?_⟩
  rw [mem_block1]
  obtain ⟨e0, e1, e2, e3, e4, e5, e6, e7, e8, e9, e10, e11⟩ :=
    index1 ⟨(i 0).val / 5000, by show (i 0).val / 5000 < grid1.N; rw [N_1]; omega⟩
  have e10' : win1_5.index ⟨(i 0).val / 5000, by show (i 0).val / 5000 < grid1.N; rw [N_1]; omega⟩ (0 : Fin 2)
      = (i 0).val / 5000 := e10
  intro a
  match a with
  | ⟨0, _⟩ =>
    show win1_5.index _ (0 : Fin 2) * 5000 ≤ (i 0).val ∧ (i 0).val < win1_5.index _ (0 : Fin 2) * 5000 + 5000
    omega
  | ⟨1, _⟩ =>
    show win1_5.index _ (1 : Fin 2) * 64 ≤ (i 1).val ∧ (i 1).val < win1_5.index _ (1 : Fin 2) * 64 + 64
    omega

/-- The second call's output array after its ten points: the scaled hidden product of the arrays it finds. -/
theorem final1 (c : Dev nD) :
    (dat1 V c).arrAt 5 cfg1.N
      = scaledHidden1 (V c main_v25) (V c main_v26) (V c main_v27) (V c main_arg3) (V c main_v28) :=
  (dat1 V c).arrAt_eq_of_cover 5 _ (fun t _ => flushed1 V c t) cover1

end Cert.KernelIdeal.Layers

end
-- ==== Proof.Layer2.lean ====
/-
  The third call's output array as one function of the arrays it finds, at the exact instance. Point t of the ten
  stages rows 5000·t … 5000·t + 4999 of the aggregate and of the column vector and the whole bias row, and writes back
  the same rows of the output; entry (r, j) of what it writes is agg(r, j) · col(r, 0) + b(0, j), whatever t is, and the
  ten row blocks tile the 50000 rows.
-/
import proofs.«162312_j31576599560550_2_alg».proof.Proof.Gen.KernelIdeal.Frame
import proofs.«162312_j31576599560550_2_alg».proof.Proof.Spec
import Idealize.ShloMosaic.Lib.Pipeline.Value

noncomputable section

namespace Cert.KernelIdeal.Layers

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The block indices at a grid point: the row-blocked windows sit at block row t, the bias row at block (0, 0). -/
theorem index2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the scaled aggregate plus the bias, of the arrays the call finds. -/
theorem flushed2 (c : Dev nD) (t : Fin cfg2.N) :
    (dat2 V c).flushed 3 t = ((cfg2.win 3).blk t).view.read (Elt Ideal)
      (affine2 (V c main_v40) (V c main_v41) (V c main_v42)) := by
  show (cfg2.win 3).cut (grid2.coords t) ((dat2 V c).after 3 t) = _
  rw [after2_3]
  unfold out2_3
  rw [View.canon_unit_zero zero_offsets2]
  simp only [View.ld_unit_zero (S := S5000x64) zero_offsets2, View.ld_unit_zero (S := S5000x1) zero_offsets2,
    View.ld_unit_zero (S := S1x64) zero_offsets2]
  obtain ⟨e0, e1, e2, e3, e4, e5, e6, e7⟩ := index2 t
  funext j
  obtain ⟨p, q, rfl⟩ : ∃ (p : Fin 5000) (q : Fin 64), j = ix2 p q := ⟨j 0, j 1, eq_ix2 j⟩
  refine (Bodies.pay2_apply (iblk2 V c 0 t) (iblk2 V c 1 t) (iblk2 V c 2 t) p q).trans ?_
  show _ = affine2 (V c main_v40) (V c main_v41) (V c main_v42) (((cfg2.win 3).blk t).view.emb (ix2 p q))
  unfold affine2
  refine congrArg₂ (· + ·) (congrArg₂ (· * ·) ?_ ?_) ?_
  · show V c main_v40 (((cfg2.win 0).blk t).view.emb (ix2 p q)) = _
    refine congrArg (V c main_v40) (funext fun a => Fin.ext ?_)
    match a with
    | ⟨0, _⟩ =>
      show win2_0.index t (0 : Fin 2) * 5000 + 1 * p.val = win2_3.index t (0 : Fin 2) * 5000 + 1 * p.val
      omega
    | ⟨1, _⟩ =>
      show win2_0.index t (1 : Fin 2) * 64 + 1 * q.val = win2_3.index t (1 : Fin 2) * 64 + 1 * q.val
      omega
  · show V c main_v41 (((cfg2.win 1).blk t).view.emb (ix2 p (0 : Fin 1))) = _
    refine congrArg (V c main_v41) (funext fun a => Fin.ext ?_)
    match a with
    | ⟨0, _⟩ =>
      show win2_1.index t (0 : Fin 2) * 5000 + 1 * p.val = win2_3.index t (0 : Fin 2) * 5000 + 1 * p.val
      omega
    | ⟨1, _⟩ =>
      show win2_1.index t (1 : Fin 2) * 1 + 1 * 0 = 0
      omega
  · show V c main_v42 (((cfg2.win 2).blk t).view.emb (ix2 (0 : Fin 1) q)) = _
    refine congrArg (V c main_v42) (funext fun a => Fin.ext ?_)
    match a with
    | ⟨0, _⟩ =>
      show win2_2.index t (0 : Fin 2) * 1 + 1 * 0 = 0
      omega
    | ⟨1, _⟩ =>
      show win2_2.index t (1 : Fin 2) * 64 + 1 * q.val = win2_3.index t (1 : Fin 2) * 64 + 1 * q.val
      omega

/-- An index of the output array lies in point t's block iff each coordinate lies in the block's range. -/
theorem mem_block2 (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v43).slice (win2_3.rect t)).set ↔ _
  rw [View.set_slice_whole, Rect.mem_set_unit]
  exact Iff.rfl

/-- Every row of the output lies in the block of the point that is its row divided by 5000. -/
theorem cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  refine ⟨⟨(i 0).val / 5000, by show (i 0).val / 5000 < grid2.N; rw [N_2]; omega⟩, flush2_3 _, ?_⟩
  rw [mem_block2]
  obtain ⟨e0, e1, e2, e3, e4, e5, e6, e7⟩ :=
    index2 ⟨(i 0).val / 5000, by show (i 0).val / 5000 < grid2.N; rw [N_2]; omega⟩
  have e6' : win2_3.index ⟨(i 0).val / 5000, by show (i 0).val / 5000 < grid2.N; rw [N_2]; omega⟩ (0 : Fin 2)
      = (i 0).val / 5000 := e6
  intro a
  match a with
  | ⟨0, _⟩ =>
    show win2_3.index _ (0 : Fin 2) * 5000 ≤ (i 0).val ∧ (i 0).val < win2_3.index _ (0 : Fin 2) * 5000 + 5000
    omega
  | ⟨1, _⟩ =>
    show win2_3.index _ (1 : Fin 2) * 64 ≤ (i 1).val ∧ (i 1).val < win2_3.index _ (1 : Fin 2) * 64 + 64
    omega

/-- The third call's output array after its ten points: the scaled aggregate plus the bias, of the arrays it finds. -/
theorem final2 (c : Dev nD) :
    (dat2 V c).arrAt 3 cfg2.N = affine2 (V c main_v40) (V c main_v41) (V c main_v42) :=
  (dat2 V c).arrAt_eq_of_cover 3 _ (fun t _ => flushed2 V c t) cover2

end Cert.KernelIdeal.Layers

end
-- ==== Proof.Walk.lean ====
/-
  The host operations between the three calls, read as pure functions, at the exact instance. From the edge lists
  src and dst: the degree norms rsqrt(max(deg, 1)) (a scatter-add of ones into zeros, then max with one, then the
  reciprocal square root), the row index (src with negative entries wrapped by the number of nodes, as a column), a
  vector viewed as a column, and the aggregation of a node table along the edges: take the table's rows at the row
  index, widen the format, and scatter-add them into zeros at dst. Each stretch of host operations is read off at the
  buffers the next call stages, as a function of the contents the stretch starts from; a buffer that no operation of a
  stretch writes, and that is not one of a call's arrays, keeps its contents.
-/
import proofs.«162312_j31576599560550_2_alg».proof.Proof.Gen.KernelIdeal.Frame
import Idealize.ShloMosaic.Lib.StableHlo.Run
import Idealize.ShloMosaic.PureOps.Ideal

noncomputable section

namespace Cert.KernelIdeal.Glue

open Cert.KernelIdeal Cert.KernelIdeal.Gen Idealize.ShloMosaic Idealize.ShloMosaic.TcCoe Idealize.SL.Sem
open Idealize.ShloMosaic.StableHlo

/-- The start indices of `table[src]`: a negative entry wrapped by the number of nodes, as a column. -/
def rowIndex (a5 : IVec S800000 32) : IVec S800000x1 32 :=
  broadcastInDim S800000x1 ![0] bcast_S800000_S800000x1_0
    (select (cmpi .slt a5 (broadcastInDim S800000 ![] bcast_S_S800000 (constantI S_ 32 0#32)))
      (addi a5 (broadcastInDim S800000 ![] bcast_S_S800000 (constantI S_ 32 50000#32))) a5)

/-- The degree norm of an edge end list: rsqrt(max(number of edges ending at each node, 1)). -/
def degreeNorm (a : IVec S800000 32) : FVec Ideal S50000 .f32 :=
  Host.rsqrt (maximumf
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 a)
      (broadcastInDim S800000 ![] bcast_S_S800000 (constant (F := Ideal) S_ .f32 0x3F800000#32)))
    (broadcastInDim S50000 ![] bcast_S_S50000 (constant (F := Ideal) S_ .f32 0x3F800000#32)))

/-- A vector over the nodes viewed as a column. -/
def column (v : FVec Ideal S50000 .f32) : FVec Ideal S50000x1 .f32 :=
  shapeCast S50000x1 v shapeCasts_S50000_S50000x1

/-- A node table of 128 columns aggregated along the edges: its rows at the row index of src, added up at dst. -/
def aggregate128 (a5 a6 : IVec S800000 32) (h : FVec Ideal S50000x128 .bf16) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 a6)
    (extf .f32 (Host.gather gather_S50000x128_S800000x1_S800000x128_1_0_n_n_0_1_1128 h (rowIndex a5)) bitsLt_bf16_f32)

/-- A node table of 64 columns aggregated along the edges. -/
def aggregate64 (a5 a6 : IVec S800000 32) (h : FVec Ideal S50000x64 .bf16) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 a6)
    (extf .f32 (Host.gather gather_S50000x64_S800000x1_S800000x64_1_0_n_n_0_1_164 h (rowIndex a5)) bitsLt_bf16_f32)

/-- A buffer none of a stretch's operations writes keeps its contents through the stretch. -/
macro "unwritten" : tactic =>
  `(tactic| (refine StableHlo.after_of_forall_not_mem _ _ (List.forall_iff_forall_mem.mp ?_)
             simp only [hostOps0, hostOps1, hostOps2, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

section Stretches

variable (W : Valuation τ sig (Elt Ideal))

/-! ### The first stretch -/

theorem stretch0_v9 : StableHlo.after (hostOps0 (F := Ideal)) W (Proc.devRef .tc main_v9) = degreeNorm (W (Proc.devRef .tc main_arg5)) := by
  dsimp only [hostOps0]; after_results; rfl
theorem stretch0_v12 : StableHlo.after (hostOps0 (F := Ideal)) W (Proc.devRef .tc main_v12) = degreeNorm (W (Proc.devRef .tc main_arg6)) := by
  dsimp only [hostOps0]; after_results; rfl
theorem stretch0_v13 : StableHlo.after (hostOps0 (F := Ideal)) W (Proc.devRef .tc main_v13) = column (degreeNorm (W (Proc.devRef .tc main_arg5))) := by
  dsimp only [hostOps0]; after_results; rfl
theorem stretch0_arg0 : StableHlo.after (hostOps0 (F := Ideal)) W (Proc.devRef .tc main_arg0) = W (Proc.devRef .tc main_arg0) := by unwritten
theorem stretch0_arg1 : StableHlo.after (hostOps0 (F := Ideal)) W (Proc.devRef .tc main_arg1) = W (Proc.devRef .tc main_arg1) := by unwritten
theorem stretch0_arg2 : StableHlo.after (hostOps0 (F := Ideal)) W (Proc.devRef .tc main_arg2) = W (Proc.devRef .tc main_arg2) := by unwritten
theorem stretch0_arg3 : StableHlo.after (hostOps0 (F := Ideal)) W (Proc.devRef .tc main_arg3) = W (Proc.devRef .tc main_arg3) := by unwritten
theorem stretch0_arg4 : StableHlo.after (hostOps0 (F := Ideal)) W (Proc.devRef .tc main_arg4) = W (Proc.devRef .tc main_arg4) := by unwritten
theorem stretch0_arg5 : StableHlo.after (hostOps0 (F := Ideal)) W (Proc.devRef .tc main_arg5) = W (Proc.devRef .tc main_arg5) := by unwritten
theorem stretch0_arg6 : StableHlo.after (hostOps0 (F := Ideal)) W (Proc.devRef .tc main_arg6) = W (Proc.devRef .tc main_arg6) := by unwritten

/-! ### The second stretch -/

theorem stretch1_v25 : StableHlo.after (hostOps1 (F := Ideal)) W (Proc.devRef .tc main_v25)
    = aggregate128 (W (Proc.devRef .tc main_arg5)) (W (Proc.devRef .tc main_arg6)) (W (Proc.devRef .tc main_v14)) := by
  dsimp only [hostOps1]; after_results; rfl
theorem stretch1_v26 : StableHlo.after (hostOps1 (F := Ideal)) W (Proc.devRef .tc main_v26) = column (W (Proc.devRef .tc main_v12)) := by
  dsimp only [hostOps1]; after_results; rfl
theorem stretch1_v27 : StableHlo.after (hostOps1 (F := Ideal)) W (Proc.devRef .tc main_v27)
    = shapeCast S1x128 (W (Proc.devRef .tc main_arg2)) shapeCasts_S128_S1x128 := by
  dsimp only [hostOps1]; after_results; rfl
theorem stretch1_v28 : StableHlo.after (hostOps1 (F := Ideal)) W (Proc.devRef .tc main_v28) = column (W (Proc.devRef .tc main_v9)) := by
  dsimp only [hostOps1]; after_results; rfl
theorem stretch1_arg3 : StableHlo.after (hostOps1 (F := Ideal)) W (Proc.devRef .tc main_arg3) = W (Proc.devRef .tc main_arg3) := by unwritten
theorem stretch1_arg4 : StableHlo.after (hostOps1 (F := Ideal)) W (Proc.devRef .tc main_arg4) = W (Proc.devRef .tc main_arg4) := by unwritten
theorem stretch1_arg5 : StableHlo.after (hostOps1 (F := Ideal)) W (Proc.devRef .tc main_arg5) = W (Proc.devRef .tc main_arg5) := by unwritten
theorem stretch1_arg6 : StableHlo.after (hostOps1 (F := Ideal)) W (Proc.devRef .tc main_arg6) = W (Proc.devRef .tc main_arg6) := by unwritten
theorem stretch1_v12 : StableHlo.after (hostOps1 (F := Ideal)) W (Proc.devRef .tc main_v12) = W (Proc.devRef .tc main_v12) := by unwritten

/-! ### The third stretch -/

theorem stretch2_v40 : StableHlo.after (hostOps2 (F := Ideal)) W (Proc.devRef .tc main_v40)
    = aggregate64 (W (Proc.devRef .tc main_arg5)) (W (Proc.devRef .tc main_arg6)) (W (Proc.devRef .tc main_v29)) := by
  dsimp only [hostOps2]; after_results; rfl
theorem stretch2_v41 : StableHlo.after (hostOps2 (F := Ideal)) W (Proc.devRef .tc main_v41) = column (W (Proc.devRef .tc main_v12)) := by
  dsimp only [hostOps2]; after_results; rfl
theorem stretch2_v42 : StableHlo.after (hostOps2 (F := Ideal)) W (Proc.devRef .tc main_v42)
    = shapeCast S1x64 (W (Proc.devRef .tc main_arg4)) shapeCasts_S64_S1x64 := by
  dsimp only [hostOps2]; after_results; rfl

end Stretches

end Cert.KernelIdeal.Glue

end
-- ==== Proof.Composed.lean ====
/-
  The kernel's three layers composed, as one function of the seven arguments: the first scaled product over the
  source norm, aggregated along the edges; the scaled hidden product of that aggregate, aggregated again; the last
  aggregate scaled by the destination norm plus the second bias.
-/
import proofs.«162312_j31576599560550_2_alg».proof.Proof.Spec
import proofs.«162312_j31576599560550_2_alg».proof.Proof.Walk

noncomputable section

namespace Cert.Bridge

open Idealize.ShloMosaic
open Cert.KernelIdeal Cert.KernelIdeal.Glue Cert.KernelIdeal.Layers
open Cert.KernelIdeal.Facts₀ Cert.KernelIdeal.Facts

/-- The kernel's composed value: the three layers over the degree norms of the edge lists. -/
def kernelValue (a0 : FVec Ideal S50000x256 .f32) (a1 : FVec Ideal S256x128 .f32) (a2 : FVec Ideal S128 .f32)
    (a3 : FVec Ideal S128x64 .f32) (a4 : FVec Ideal S64 .f32) (a5 a6 : IVec S800000 32) : FVec Ideal S50000x64 .f32 :=
  affine2
    (aggregate64 a5 a6
      (scaledHidden1 (aggregate128 a5 a6 (scaledProduct0 a0 a1 (column (degreeNorm a5))))
        (column (degreeNorm a6)) (shapeCast S1x128 a2 shapeCasts_S128_S1x128) a3 (column (degreeNorm a5))))
    (column (degreeNorm a6)) (shapeCast S1x64 a4 shapeCasts_S64_S1x64)

end Cert.Bridge

end
-- ==== Proof.Value.lean ====
/-
  The idealized kernel's result as one function of its seven arguments. The memory at each of the six boundaries of
  the run is read back: a host stretch through its operations, a call through the whole-array function its ten points
  leave, a buffer nothing has written since through to where it was written — the arguments to the launch memory, the
  two degree norms to the first stretch. The result buffer ends holding the three layers composed.
-/
import proofs.«162312_j31576599560550_2_alg».proof.Proof.KRun
import proofs.«162312_j31576599560550_2_alg».proof.Proof.Layer0
import proofs.«162312_j31576599560550_2_alg».proof.Proof.Layer1
import proofs.«162312_j31576599560550_2_alg».proof.Proof.Layer2
import proofs.«162312_j31576599560550_2_alg».proof.Proof.Walk
import proofs.«162312_j31576599560550_2_alg».proof.Proof.Composed

noncomputable section

namespace Cert.KernelIdeal.Whole

open Cert.KernelIdeal Cert.KernelIdeal.Gen Cert.KernelIdeal.Glue Cert.KernelIdeal.Layers
open Idealize.ShloMosaic Idealize.ShloMosaic.TcCoe Idealize.SL.Sem

variable (m : (ℓ : Loc nD τ sig) → Buf (Elt Ideal) ℓ) (ρ : Dev nD → PrngReg) (c : Dev nD)

/-! ### After the first stretch -/

theorem v1_v13 : V1 m ρ c main_v13 = column (degreeNorm (m ((c : Thread nD τ).loc main_arg5))) := stretch0_v13 (W0 m ρ c)
theorem v1_arg0 : V1 m ρ c main_arg0 = (m ((c : Thread nD τ).loc main_arg0)) := stretch0_arg0 (W0 m ρ c)
theorem v1_arg1 : V1 m ρ c main_arg1 = (m ((c : Thread nD τ).loc main_arg1)) := stretch0_arg1 (W0 m ρ c)
theorem w1_main_v9 : W1 m ρ c (Proc.devRef .tc main_v9) = degreeNorm (m ((c : Thread nD τ).loc main_arg5)) := stretch0_v9 (W0 m ρ c)
theorem w1_main_v12 : W1 m ρ c (Proc.devRef .tc main_v12) = degreeNorm (m ((c : Thread nD τ).loc main_arg6)) := stretch0_v12 (W0 m ρ c)
theorem w1_main_arg2 : W1 m ρ c (Proc.devRef .tc main_arg2) = (m ((c : Thread nD τ).loc main_arg2)) := stretch0_arg2 (W0 m ρ c)
theorem w1_main_arg3 : W1 m ρ c (Proc.devRef .tc main_arg3) = (m ((c : Thread nD τ).loc main_arg3)) := stretch0_arg3 (W0 m ρ c)
theorem w1_main_arg4 : W1 m ρ c (Proc.devRef .tc main_arg4) = (m ((c : Thread nD τ).loc main_arg4)) := stretch0_arg4 (W0 m ρ c)
theorem w1_main_arg5 : W1 m ρ c (Proc.devRef .tc main_arg5) = (m ((c : Thread nD τ).loc main_arg5)) := stretch0_arg5 (W0 m ρ c)
theorem w1_main_arg6 : W1 m ρ c (Proc.devRef .tc main_arg6) = (m ((c : Thread nD τ).loc main_arg6)) := stretch0_arg6 (W0 m ρ c)

/-! ### After the first call -/

theorem w2_main_v14 : W2 m ρ c (Proc.devRef .tc main_v14) = scaledProduct0 (m ((c : Thread nD τ).loc main_arg0)) (m ((c : Thread nD τ).loc main_arg1)) (column (degreeNorm (m ((c : Thread nD τ).loc main_arg5)))) := by
  refine (W2_arr m ρ c 3).trans ?_
  rw [final0 (V1 m ρ) c, v1_arg0, v1_arg1, v1_v13]
theorem w2_main_arg2 : W2 m ρ c (Proc.devRef .tc main_arg2) = (m ((c : Thread nD τ).loc main_arg2)) := (W2_of_ne m ρ c main_arg2 (by decide)).trans (w1_main_arg2 m ρ c)
theorem w2_main_arg3 : W2 m ρ c (Proc.devRef .tc main_arg3) = (m ((c : Thread nD τ).loc main_arg3)) := (W2_of_ne m ρ c main_arg3 (by decide)).trans (w1_main_arg3 m ρ c)
theorem w2_main_arg4 : W2 m ρ c (Proc.devRef .tc main_arg4) = (m ((c : Thread nD τ).loc main_arg4)) := (W2_of_ne m ρ c main_arg4 (by decide)).trans (w1_main_arg4 m ρ c)
theorem w2_main_arg5 : W2 m ρ c (Proc.devRef .tc main_arg5) = (m ((c : Thread nD τ).loc main_arg5)) := (W2_of_ne m ρ c main_arg5 (by decide)).trans (w1_main_arg5 m ρ c)
theorem w2_main_arg6 : W2 m ρ c (Proc.devRef .tc main_arg6) = (m ((c : Thread nD τ).loc main_arg6)) := (W2_of_ne m ρ c main_arg6 (by decide)).trans (w1_main_arg6 m ρ c)
theorem w2_main_v9 : W2 m ρ c (Proc.devRef .tc main_v9) = degreeNorm (m ((c : Thread nD τ).loc main_arg5)) := (W2_of_ne m ρ c main_v9 (by decide)).trans (w1_main_v9 m ρ c)
theorem w2_main_v12 : W2 m ρ c (Proc.devRef .tc main_v12) = degreeNorm (m ((c : Thread nD τ).loc main_arg6)) := (W2_of_ne m ρ c main_v12 (by decide)).trans (w1_main_v12 m ρ c)

/-! ### After the second stretch -/

theorem v3_v25 : V3 m ρ c main_v25 = aggregate128 (m ((c : Thread nD τ).loc main_arg5)) (m ((c : Thread nD τ).loc main_arg6)) (scaledProduct0 (m ((c : Thread nD τ).loc main_arg0)) (m ((c : Thread nD τ).loc main_arg1)) (column (degreeNorm (m ((c : Thread nD τ).loc main_arg5))))) := by
  refine (stretch1_v25 (W2 m ρ c)).trans ?_
  rw [w2_main_arg5, w2_main_arg6, w2_main_v14]
theorem v3_v26 : V3 m ρ c main_v26 = column (degreeNorm (m ((c : Thread nD τ).loc main_arg6))) := by
  refine (stretch1_v26 (W2 m ρ c)).trans ?_
  rw [w2_main_v12]
theorem v3_v27 : V3 m ρ c main_v27 = shapeCast S1x128 (m ((c : Thread nD τ).loc main_arg2)) shapeCasts_S128_S1x128 := by
  refine (stretch1_v27 (W2 m ρ c)).trans ?_
  rw [w2_main_arg2]
theorem v3_v28 : V3 m ρ c main_v28 = column (degreeNorm (m ((c : Thread nD τ).loc main_arg5))) := by
  refine (stretch1_v28 (W2 m ρ c)).trans ?_
  rw [w2_main_v9]
theorem v3_arg3 : V3 m ρ c main_arg3 = (m ((c : Thread nD τ).loc main_arg3)) := (stretch1_arg3 (W2 m ρ c)).trans (w2_main_arg3 m ρ c)
theorem w3_main_arg4 : W3 m ρ c (Proc.devRef .tc main_arg4) = (m ((c : Thread nD τ).loc main_arg4)) := (stretch1_arg4 (W2 m ρ c)).trans (w2_main_arg4 m ρ c)
theorem w3_main_arg5 : W3 m ρ c (Proc.devRef .tc main_arg5) = (m ((c : Thread nD τ).loc main_arg5)) := (stretch1_arg5 (W2 m ρ c)).trans (w2_main_arg5 m ρ c)
theorem w3_main_arg6 : W3 m ρ c (Proc.devRef .tc main_arg6) = (m ((c : Thread nD τ).loc main_arg6)) := (stretch1_arg6 (W2 m ρ c)).trans (w2_main_arg6 m ρ c)
theorem w3_main_v12 : W3 m ρ c (Proc.devRef .tc main_v12) = degreeNorm (m ((c : Thread nD τ).loc main_arg6)) := (stretch1_v12 (W2 m ρ c)).trans (w2_main_v12 m ρ c)

/-! ### After the second call -/

theorem w4_main_v29 : W4 m ρ c (Proc.devRef .tc main_v29) = scaledHidden1 (aggregate128 (m ((c : Thread nD τ).loc main_arg5)) (m ((c : Thread nD τ).loc main_arg6)) (scaledProduct0 (m ((c : Thread nD τ).loc main_arg0)) (m ((c : Thread nD τ).loc main_arg1)) (column (degreeNorm (m ((c : Thread nD τ).loc main_arg5)))))) (column (degreeNorm (m ((c : Thread nD τ).loc main_arg6)))) (shapeCast S1x128 (m ((c : Thread nD τ).loc main_arg2)) shapeCasts_S128_S1x128) (m ((c : Thread nD τ).loc main_arg3)) (column (degreeNorm (m ((c : Thread nD τ).loc main_arg5)))) := by
  refine (W4_arr m ρ c 5).trans ?_
  rw [final1 (V3 m ρ) c, v3_v25, v3_v26, v3_v27, v3_arg3, v3_v28]
theorem w4_main_arg4 : W4 m ρ c (Proc.devRef .tc main_arg4) = (m ((c : Thread nD τ).loc main_arg4)) := (W4_of_ne m ρ c main_arg4 (by decide)).trans (w3_main_arg4 m ρ c)
theorem w4_main_arg5 : W4 m ρ c (Proc.devRef .tc main_arg5) = (m ((c : Thread nD τ).loc main_arg5)) := (W4_of_ne m ρ c main_arg5 (by decide)).trans (w3_main_arg5 m ρ c)
theorem w4_main_arg6 : W4 m ρ c (Proc.devRef .tc main_arg6) = (m ((c : Thread nD τ).loc main_arg6)) := (W4_of_ne m ρ c main_arg6 (by decide)).trans (w3_main_arg6 m ρ c)
theorem w4_main_v12 : W4 m ρ c (Proc.devRef .tc main_v12) = degreeNorm (m ((c : Thread nD τ).loc main_arg6)) := (W4_of_ne m ρ c main_v12 (by decide)).trans (w3_main_v12 m ρ c)

/-! ### After the third stretch -/

theorem v5_v40 : V5 m ρ c main_v40 = aggregate64 (m ((c : Thread nD τ).loc main_arg5)) (m ((c : Thread nD τ).loc main_arg6)) (scaledHidden1 (aggregate128 (m ((c : Thread nD τ).loc main_arg5)) (m ((c : Thread nD τ).loc main_arg6)) (scaledProduct0 (m ((c : Thread nD τ).loc main_arg0)) (m ((c : Thread nD τ).loc main_arg1)) (column (degreeNorm (m ((c : Thread nD τ).loc main_arg5)))))) (column (degreeNorm (m ((c : Thread nD τ).loc main_arg6)))) (shapeCast S1x128 (m ((c : Thread nD τ).loc main_arg2)) shapeCasts_S128_S1x128) (m ((c : Thread nD τ).loc main_arg3)) (column (degreeNorm (m ((c : Thread nD τ).loc main_arg5))))) := by
  refine (stretch2_v40 (W4 m ρ c)).trans ?_
  rw [w4_main_arg5, w4_main_arg6, w4_main_v29]
theorem v5_v41 : V5 m ρ c main_v41 = column (degreeNorm (m ((c : Thread nD τ).loc main_arg6))) := by
  refine (stretch2_v41 (W4 m ρ c)).trans ?_
  rw [w4_main_v12]
theorem v5_v42 : V5 m ρ c main_v42 = shapeCast S1x64 (m ((c : Thread nD τ).loc main_arg4)) shapeCasts_S64_S1x64 := by
  refine (stretch2_v42 (W4 m ρ c)).trans ?_
  rw [w4_main_arg4]

/-! ### After the third call -/

/-- The result buffer after the run: the three layers composed, of the launch contents of the seven arguments. -/
theorem result_value : W6 m ρ c (Proc.devRef .tc main_v43)
    = Cert.Bridge.kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (result_arr m ρ c).trans ?_
  rw [final2 (V5 m ρ) c, v5_v40, v5_v41, v5_v42]
  rfl

end Cert.KernelIdeal.Whole

end
-- ==== Proof.LibGatherRows.lean ====
/-
  Taking rows of a table by an index column, read at an entry. The operand is a table [N, C] (or a vector [N]), the
  start indices a column [E, 1], and the dimension numbers are those of `table[idx]`: the row axis collapsed and named by
  the one start-index component, the column axis (if any) the one offset axis. Entry (e, c) of the result is the
  table's entry (r, c) with r the start index idx[e, 0] read as a signed integer and clamped into [0, N - 1]; for a
  vector, entry e is the vector's entry r. The row r is the SAME function of idx and e in both, so taking rows
  commutes with any operation that acts row by row. Stated for any record with those dimension numbers.
-/
import Idealize.ShloMosaic.Lib.ValueIdx
import Idealize.ShloMosaic.PureOps.ShapeOps

namespace Cert.LibGatherRows

open Idealize.ShloMosaic Idealize.ShloMosaic.ValueIdx

/-- The row that start index `idx[e, 0]` names in a table of `N` rows: read signed, clamped into `[0, N - 1]`. -/
def row {N E w : Nat} (hN : 0 < N) (idx : IVec ⟨2, ![E, 1]⟩ w) (e : Fin E) : Fin N :=
  ⟨min (idx (ix2 e (0 : Fin 1))).toInt.toNat (N - 1), by omega⟩

/-- Rows of a table: result entry `(e, c)` reads the operand at `(row idx e, c)`. -/
theorem rows_operandIdx {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (idx : IVec ⟨2, ![E, 1]⟩ w) (e : Fin E) (c : Fin C) :
    d.operandIdx (ix2 e c) idx = ix2 (row hN idx e) c := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = _
    rw [GatherDims.batchCoord_eq_zero _ _ _ List.not_mem_nil]
    unfold GatherDims.start
    rw [dif_neg (show ¬ ((1 : Fin 2) ∈ ([0] : List (Fin 2))) by decide)]
    simp only [Nat.add_zero, Nat.zero_add]
    unfold GatherDims.offCoord
    rw [dif_pos ((GatherDims.mem_sKept _ _).mpr ⟨(show ¬ ((1 : Fin 2) ∈ ([0] : List (Fin 2))) by decide), List.not_mem_nil⟩)]
    rfl

/-- Entries of a vector: result entry `e` reads the operand at `row idx e`. -/
theorem elems_operandIdx {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (row hN idx e) := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl

/-- The table's rows taken, at entry `(e, c)`. -/
theorem gather_rows_apply {α : Type} {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (c : Fin C) :
    Host.gather d x idx (ix2 e c) = x (ix2 (row hN idx e) c) := by
  unfold Host.gather
  rw [rows_operandIdx hN d h1 h2 h3 h4 h5 h6 h7 idx e c]

/-- The vector's entries taken, at entry `e`. -/
theorem gather_elems_apply {α : Type} {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (row hN idx e)) := by
  unfold Host.gather
  rw [elems_operandIdx hN d h1 h2 h3 h4 h5 h6 h7 idx e]

end Cert.LibGatherRows
-- ==== Proof.BridgeA.lean ====
/-
  The reference's small stages read at an entry, at the exact instance: the source norm taken along the edges and
  spread over the columns is the norm at the edge's clamped row; the hidden layer relu(A · destination norm + bias) at
  entry (r, k). The degree norms and the row index are the same terms in both programs.
-/
import proofs.«162312_j31576599560550_2_alg».proof.Proof.Gen.ReferenceIdeal.Read
import proofs.«162312_j31576599560550_2_alg».proof.Proof.Spec
import proofs.«162312_j31576599560550_2_alg».proof.Proof.Walk
import proofs.«162312_j31576599560550_2_alg».proof.Proof.LibGatherRows
import proofs.«162312_j31576599560550_2_alg».proof.Proof.LibColumn
import proofs.«162312_j31576599560550_2_alg».proof.Proof.LibDot
import Idealize.ShloMosaic.Lib.ValueLayout

noncomputable section

namespace Cert.Bridge

open Idealize.ShloMosaic Idealize.ShloMosaic.ValueIdx
open Cert.KernelIdeal Cert.KernelIdeal.Glue Cert.KernelIdeal.Layers Cert.KernelIdeal.Bodies
open Cert.LibGatherRows
open Cert.KernelIdeal.Facts₀ Cert.KernelIdeal.Facts

theorem nodes_pos : 0 < 50000 := by decide

/-- The reference's second product contracts axis 1 of the hidden layer with axis 0 of the second weights. -/
theorem plain_ref2 : Cert.LibDot.Plain Cert.ReferenceIdeal.dot_S50000x128_S128x64_S50000x64_1_0_0_1_n_n where
  hrank := rfl
  hs := rfl
  hl0 := Cert.ReferenceIdeal.Read.lhs_main_v41_0
  hl1 := Cert.ReferenceIdeal.Read.lhs_main_v41_1
  hr0 := Cert.ReferenceIdeal.Read.rhs_main_v41_0
  hr1 := Cert.ReferenceIdeal.Read.rhs_main_v41_1

/-- The source norm taken along the edges and spread over the columns, at entry (e, q): the norm at the edge's row. -/
theorem ref_norm128 (a5 : IVec S800000 32) (e : Fin 800000) (q : Fin 128) :
    Cert.ReferenceIdeal.Read.val_main_v29 (F := Ideal) a5 (ix2 e q) = degreeNorm a5 (ix1 (row nodes_pos (rowIndex a5) e)) := by
  rw [Cert.ReferenceIdeal.Read.val_main_v29_apply, Cert.ReferenceIdeal.Read.val_main_v28_apply]
  have hidx : Cert.ReferenceIdeal.Read.idx_main_v28 (Cert.ReferenceIdeal.Read.idx_main_v29 (ix2 e q)) = ix1 e :=
    funext fun a => Fin.ext (by match a with | ⟨0, _⟩ => rfl)
  rw [hidx]
  exact gather_elems_apply nodes_pos Cert.ReferenceIdeal.gather_S50000_S800000x1_S800000_n_0_n_n_0_1_1 rfl rfl rfl rfl rfl rfl rfl (degreeNorm a5) (rowIndex a5) e

/-- The same for the 64-column layer. -/
theorem ref_norm64 (a5 : IVec S800000 32) (e : Fin 800000) (q : Fin 64) :
    Cert.ReferenceIdeal.Read.val_main_v57 (F := Ideal) a5 (ix2 e q) = degreeNorm a5 (ix1 (row nodes_pos (rowIndex a5) e)) := by
  rw [Cert.ReferenceIdeal.Read.val_main_v57_apply, Cert.ReferenceIdeal.Read.val_main_v56_apply]
  have hidx : Cert.ReferenceIdeal.Read.idx_main_v56 (Cert.ReferenceIdeal.Read.idx_main_v57 (ix2 e q)) = ix1 e :=
    funext fun a => Fin.ext (by match a with | ⟨0, _⟩ => rfl)
  rw [hidx]
  exact gather_elems_apply nodes_pos Cert.ReferenceIdeal.gather_S50000_S800000x1_S800000_n_0_n_n_0_1_1 rfl rfl rfl rfl rfl rfl rfl (degreeNorm a5) (rowIndex a5) e

/-- The reference's hidden layer over an aggregate `A`: relu(A · destination norm + bias). -/
def refHidden (A : FVec Ideal S50000x128 .f32) (a2 : FVec Ideal S128 .f32) (a6 : IVec S800000 32) : FVec Ideal S50000x128 .f32 :=
  maximumf (addf (mulf A (Cert.ReferenceIdeal.Read.val_main_v35 (F := Ideal) a6)) (Cert.ReferenceIdeal.Read.val_main_v38 (F := Ideal) a2)) (Cert.ReferenceIdeal.Read.val_main_call0_v0 (F := Ideal))

/-- The reference's hidden layer at entry (r, k). -/
theorem refHidden_apply (A : FVec Ideal S50000x128 .f32) (a2 : FVec Ideal S128 .f32) (a6 : IVec S800000 32)
    (r : Fin 50000) (k : Fin 128) :
    refHidden A a2 a6 (ix2 r k) = hidden (A (ix2 r k)) (degreeNorm a6 (ix1 r)) (a2 (ix1 k)) := by
  show max (A (ix2 r k) * Cert.ReferenceIdeal.Read.val_main_v35 (F := Ideal) a6 (ix2 r k) + Cert.ReferenceIdeal.Read.val_main_v38 (F := Ideal) a2 (ix2 r k))
      (Cert.ReferenceIdeal.Read.val_main_call0_v0 (F := Ideal) (ix2 r k)) = _
  rw [Cert.ReferenceIdeal.Read.val_main_v35_apply, Cert.ReferenceIdeal.Read.val_main_v34_apply, Cert.ReferenceIdeal.Read.val_main_v38_apply, Cert.ReferenceIdeal.Read.val_main_v37_apply,
    Cert.ReferenceIdeal.Read.val_main_call0_v0_apply, Cert.ReferenceIdeal.Read.val_main_call0_cst_apply]
  have h1 : Cert.ReferenceIdeal.Read.idx_main_v34 (Cert.ReferenceIdeal.Read.idx_main_v35 (ix2 r k)) = ix1 r :=
    funext fun a => Fin.ext (by match a with | ⟨0, _⟩ => rfl)
  have h2 : Cert.ReferenceIdeal.Read.idx_main_v37 (Cert.ReferenceIdeal.Read.idx_main_v38 (ix2 r k)) = ix1 k :=
    funext fun a => Fin.ext (by match a with | ⟨0, _⟩ => rfl)
  rw [h1, h2]
  rfl

end Cert.Bridge

end
-- ==== Proof.BridgeB.lean ====
/-
  The kernel's first two layers against the reference's message arrays, entry by entry, at the exact instance. The
  kernel scales a node table's rows by the source norm before it takes rows along the edges; the reference takes rows
  of the unscaled table and of the norm vector and multiplies after. Both read row r = the clamped start index of edge
  e, so entry (e, j) is table(r, j) · norm(r) either way; the matrix products are the same sums over k. The last layer
  enters entry by entry through casts and broadcasts.
-/
import proofs.«162312_j31576599560550_2_alg».proof.Proof.BridgeA
import proofs.«162312_j31576599560550_2_alg».proof.Proof.Spec
import proofs.«162312_j31576599560550_2_alg».proof.Proof.Walk
import proofs.«162312_j31576599560550_2_alg».proof.Proof.LibGatherRows
import proofs.«162312_j31576599560550_2_alg».proof.Proof.LibColumn
import proofs.«162312_j31576599560550_2_alg».proof.Proof.LibDot
import Idealize.ShloMosaic.Lib.ValueLayout

noncomputable section

namespace Cert.Bridge

open Idealize.ShloMosaic Idealize.ShloMosaic.ValueIdx
open Cert.KernelIdeal Cert.KernelIdeal.Glue Cert.KernelIdeal.Layers Cert.KernelIdeal.Bodies
open Cert.LibGatherRows
open Cert.KernelIdeal.Facts₀ Cert.KernelIdeal.Facts

/-- The reference's start indices are the kernel's row index (the same operations of src). -/
theorem ref_rowIndex19 (a5 : IVec S800000 32) : Cert.ReferenceIdeal.Read.val_main_v19 (F := Ideal) a5 = rowIndex a5 := rfl
theorem ref_rowIndex47 (a5 : IVec S800000 32) : Cert.ReferenceIdeal.Read.val_main_v47 (F := Ideal) a5 = rowIndex a5 := rfl

theorem scaledProduct0_apply (x : S50000x256.Idx → EReal) (w : S256x128.Idx → EReal) (col : S50000x1.Idx → EReal)
    (r : Fin 50000) (q : Fin 128) :
    scaledProduct0 x w col (ix2 r q) = (∑ k : Fin 256, x (ix2 r k) * w (ix2 k q)) * col (ix2 r (0 : Fin 1)) := rfl

theorem scaledHidden1_apply (agg : S50000x128.Idx → EReal) (col : S50000x1.Idx → EReal) (bias : S1x128.Idx → EReal)
    (w : S128x64.Idx → EReal) (col' : S50000x1.Idx → EReal) (r : Fin 50000) (q : Fin 64) :
    scaledHidden1 agg col bias w col' (ix2 r q)
      = (∑ k : Fin 128, hidden (agg (ix2 r k)) (col (ix2 r (0 : Fin 1))) (bias (ix2 (0 : Fin 1) k)) * w (ix2 k q))
          * col' (ix2 r (0 : Fin 1)) := rfl

theorem lidx13 (r : Fin 50000) (q : Fin 128) (k : Fin 256) : Cert.ReferenceIdeal.Read.lidx_main_v13 (ix2 r q) k = ix2 r k :=
  funext fun a => Fin.ext (by match a with | ⟨0, _⟩ => rfl | ⟨1, _⟩ => rfl)
theorem ridx13 (r : Fin 50000) (q : Fin 128) (k : Fin 256) : Cert.ReferenceIdeal.Read.ridx_main_v13 (ix2 r q) k = ix2 k q :=
  funext fun a => Fin.ext (by match a with | ⟨0, _⟩ => rfl | ⟨1, _⟩ => rfl)

/-- The kernel's first messages at entry (e, q): row r of the product, scaled by the norm at r. -/
theorem lhs1 (a0 : FVec Ideal S50000x256 .f32) (a1 : FVec Ideal S256x128 .f32) (a5 : IVec S800000 32) (e : Fin 800000) (q : Fin 128) :
    extf (F := Ideal) (φ := .bf16) .f32 (Host.gather gather_S50000x128_S800000x1_S800000x128_1_0_n_n_0_1_1128 (scaledProduct0 a0 a1 (column (degreeNorm a5))) (rowIndex a5)) bitsLt_bf16_f32 (ix2 e q)
      = (∑ k : Fin 256, a0 (ix2 (row nodes_pos (rowIndex a5) e) k) * a1 (ix2 k q)) * degreeNorm a5 (ix1 (row nodes_pos (rowIndex a5) e)) := by
  rw [extf_apply, gather_rows_apply nodes_pos gather_S50000x128_S800000x1_S800000x128_1_0_n_n_0_1_1128 rfl rfl rfl rfl rfl rfl rfl (scaledProduct0 a0 a1 (column (degreeNorm a5))) (rowIndex a5) e q,
    scaledProduct0_apply, column, shapeCast_a_a1_apply]

/-- The reference's first messages at entry (e, q): the same product row times the same norm entry. -/
theorem rhs1 (a0 : FVec Ideal S50000x256 .f32) (a1 : FVec Ideal S256x128 .f32) (a5 : IVec S800000 32) (e : Fin 800000) (q : Fin 128) :
    Cert.ReferenceIdeal.Read.val_main_v30 (F := Ideal) a0 a1 a5 (ix2 e q) = (∑ k : Fin 256, a0 (ix2 (row nodes_pos (rowIndex a5) e) k) * a1 (ix2 k q)) * degreeNorm a5 (ix1 (row nodes_pos (rowIndex a5) e)) := by
  rw [Cert.ReferenceIdeal.Read.val_main_v30_apply, Ideal.mulf_def, ref_norm128, Cert.ReferenceIdeal.Read.val_main_v20, ref_rowIndex19,
    gather_rows_apply nodes_pos Cert.ReferenceIdeal.gather_S50000x128_S800000x1_S800000x128_1_0_n_n_0_1_1128 rfl rfl rfl rfl rfl rfl rfl (Cert.ReferenceIdeal.Read.val_main_v13 (F := Ideal) a0 a1) (rowIndex a5) e q,
    Cert.ReferenceIdeal.Read.val_main_v13_apply]
  refine congrArg (· * degreeNorm a5 (ix1 (row nodes_pos (rowIndex a5) e))) (Finset.sum_congr rfl fun k _ => ?_)
  rw [lidx13, ridx13]

/-- The kernel's second messages at entry (e, q): row r of the hidden product, scaled by the norm at r. -/
theorem lhs2 (A : FVec Ideal S50000x128 .f32) (a2 : FVec Ideal S128 .f32) (a3 : FVec Ideal S128x64 .f32)
    (a5 a6 : IVec S800000 32) (e : Fin 800000) (q : Fin 64) :
    extf (F := Ideal) (φ := .bf16) .f32 (Host.gather gather_S50000x64_S800000x1_S800000x64_1_0_n_n_0_1_164 (scaledHidden1 A (column (degreeNorm a6)) (shapeCast S1x128 a2 shapeCasts_S128_S1x128) a3 (column (degreeNorm a5))) (rowIndex a5)) bitsLt_bf16_f32 (ix2 e q)
      = (∑ k : Fin 128, hidden (A (ix2 (row nodes_pos (rowIndex a5) e) k)) (degreeNorm a6 (ix1 (row nodes_pos (rowIndex a5) e))) (a2 (ix1 k)) * a3 (ix2 k q))
        * degreeNorm a5 (ix1 (row nodes_pos (rowIndex a5) e)) := by
  rw [extf_apply, gather_rows_apply nodes_pos gather_S50000x64_S800000x1_S800000x64_1_0_n_n_0_1_164 rfl rfl rfl rfl rfl rfl rfl (scaledHidden1 A (column (degreeNorm a6)) (shapeCast S1x128 a2 shapeCasts_S128_S1x128) a3 (column (degreeNorm a5))) (rowIndex a5) e q, scaledHidden1_apply]
  simp only [column, shapeCast_a_a1_apply, shapeCast_a_1a_apply]

/-- The reference's second messages at entry (e, q), over any aggregate: the same. -/
theorem rhs2 (A : FVec Ideal S50000x128 .f32) (a2 : FVec Ideal S128 .f32) (a3 : FVec Ideal S128x64 .f32)
    (a5 a6 : IVec S800000 32) (e : Fin 800000) (q : Fin 64) :
    mulf (Host.gather Cert.ReferenceIdeal.gather_S50000x64_S800000x1_S800000x64_1_0_n_n_0_1_164 (Host.dotGeneral Cert.ReferenceIdeal.dot_S50000x128_S128x64_S50000x64_1_0_0_1_n_n none (refHidden A a2 a6) a3) (rowIndex a5)) (Cert.ReferenceIdeal.Read.val_main_v57 (F := Ideal) a5) (ix2 e q)
      = (∑ k : Fin 128, hidden (A (ix2 (row nodes_pos (rowIndex a5) e) k)) (degreeNorm a6 (ix1 (row nodes_pos (rowIndex a5) e))) (a2 (ix1 k)) * a3 (ix2 k q))
        * degreeNorm a5 (ix1 (row nodes_pos (rowIndex a5) e)) := by
  rw [mulf_apply, ref_norm64, gather_rows_apply nodes_pos Cert.ReferenceIdeal.gather_S50000x64_S800000x1_S800000x64_1_0_n_n_0_1_164 rfl rfl rfl rfl rfl rfl rfl (Host.dotGeneral Cert.ReferenceIdeal.dot_S50000x128_S128x64_S50000x64_1_0_0_1_n_n none (refHidden A a2 a6) a3) (rowIndex a5) e q,
    Cert.LibDot.dotGeneral_ix2 plain_ref2]
  refine congrArg (· * degreeNorm a5 (ix1 (row nodes_pos (rowIndex a5) e))) (Finset.sum_congr rfl fun k _ => ?_)
  rw [refHidden_apply]

/-- LAYER 1: the rows of the scaled product taken along the edges are the reference's messages. -/
theorem messages1 (a0 : FVec Ideal S50000x256 .f32) (a1 : FVec Ideal S256x128 .f32) (a5 : IVec S800000 32) :
    extf (F := Ideal) (φ := .bf16) .f32 (Host.gather gather_S50000x128_S800000x1_S800000x128_1_0_n_n_0_1_1128 (scaledProduct0 a0 a1 (column (degreeNorm a5))) (rowIndex a5)) bitsLt_bf16_f32
      = Cert.ReferenceIdeal.Read.val_main_v30 (F := Ideal) a0 a1 a5 := by
  funext j
  obtain ⟨e, q, rfl⟩ : ∃ (e : Fin 800000) (q : Fin 128), j = ix2 e q := ⟨j 0, j 1, eq_ix2 j⟩
  exact (lhs1 a0 a1 a5 e q).trans (rhs1 a0 a1 a5 e q).symm

/-- LAYER 2: the rows of the scaled hidden product taken along the edges are the reference's second messages, for any
    aggregate the hidden layer is built from. -/
theorem messages2 (A : FVec Ideal S50000x128 .f32) (a2 : FVec Ideal S128 .f32) (a3 : FVec Ideal S128x64 .f32)
    (a5 a6 : IVec S800000 32) :
    extf (F := Ideal) (φ := .bf16) .f32 (Host.gather gather_S50000x64_S800000x1_S800000x64_1_0_n_n_0_1_164 (scaledHidden1 A (column (degreeNorm a6)) (shapeCast S1x128 a2 shapeCasts_S128_S1x128) a3 (column (degreeNorm a5))) (rowIndex a5)) bitsLt_bf16_f32
      = mulf (Host.gather Cert.ReferenceIdeal.gather_S50000x64_S800000x1_S800000x64_1_0_n_n_0_1_164 (Host.dotGeneral Cert.ReferenceIdeal.dot_S50000x128_S128x64_S50000x64_1_0_0_1_n_n none (refHidden A a2 a6) a3) (rowIndex a5)) (Cert.ReferenceIdeal.Read.val_main_v57 (F := Ideal) a5) := by
  funext j
  obtain ⟨e, q, rfl⟩ : ∃ (e : Fin 800000) (q : Fin 64), j = ix2 e q := ⟨j 0, j 1, eq_ix2 j⟩
  exact (lhs2 A a2 a3 a5 a6 e q).trans (rhs2 A a2 a3 a5 a6 e q).symm

/-- LAYER 3: the aggregate scaled by the destination norm plus the bias is the reference's last two stages. -/
theorem output3 (A : FVec Ideal S50000x64 .f32) (a4 : FVec Ideal S64 .f32) (a6 : IVec S800000 32) :
    affine2 A (column (degreeNorm a6)) (shapeCast S1x64 a4 shapeCasts_S64_S1x64)
      = addf (mulf A (Cert.ReferenceIdeal.Read.val_main_v63 (F := Ideal) a6)) (Cert.ReferenceIdeal.Read.val_main_v66 (F := Ideal) a4) := by
  funext j
  obtain ⟨p, q, rfl⟩ : ∃ (p : Fin 50000) (q : Fin 64), j = ix2 p q := ⟨j 0, j 1, eq_ix2 j⟩
  show A (ix2 p q) * column (degreeNorm a6) (ix2 p (0 : Fin 1)) + shapeCast S1x64 a4 shapeCasts_S64_S1x64 (ix2 (0 : Fin 1) q)
      = A (ix2 p q) * Cert.ReferenceIdeal.Read.val_main_v63 (F := Ideal) a6 (ix2 p q) + Cert.ReferenceIdeal.Read.val_main_v66 (F := Ideal) a4 (ix2 p q)
  unfold column
  rw [shapeCast_a_a1_apply, shapeCast_a_1a_apply, Cert.ReferenceIdeal.Read.val_main_v63_apply, Cert.ReferenceIdeal.Read.val_main_v62_apply,
    Cert.ReferenceIdeal.Read.val_main_v66_apply, Cert.ReferenceIdeal.Read.val_main_v65_apply]
  have h1 : Cert.ReferenceIdeal.Read.idx_main_v62 (Cert.ReferenceIdeal.Read.idx_main_v63 (ix2 p q)) = ix1 p :=
    funext fun a => Fin.ext (by match a with | ⟨0, _⟩ => rfl)
  have h2 : Cert.ReferenceIdeal.Read.idx_main_v65 (Cert.ReferenceIdeal.Read.idx_main_v66 (ix2 p q)) = ix1 q :=
    funext fun a => Fin.ext (by match a with | ⟨0, _⟩ => rfl)
  rw [h1, h2]
  rfl

end Cert.Bridge

end
-- ==== Proof.BridgeC.lean ====
/-
  The kernel's three layers composed are the reference's last stage, as functions of the seven arguments: each
  aggregate's operand (the rows taken along the edges) is the reference's message array by the layer's law, the
  scatter-adds are the same operation of equal operands, and the last layer is the reference's last two stages.
-/
import proofs.«162312_j31576599560550_2_alg».proof.Proof.BridgeB
import proofs.«162312_j31576599560550_2_alg».proof.Proof.Composed
import proofs.«162312_j31576599560550_2_alg».proof.Proof.Spec
import proofs.«162312_j31576599560550_2_alg».proof.Proof.Walk
import proofs.«162312_j31576599560550_2_alg».proof.Proof.LibGatherRows
import proofs.«162312_j31576599560550_2_alg».proof.Proof.LibColumn
import proofs.«162312_j31576599560550_2_alg».proof.Proof.LibDot
import Idealize.ShloMosaic.Lib.ValueLayout

noncomputable section

namespace Cert.Bridge

open Idealize.ShloMosaic Idealize.ShloMosaic.ValueIdx
open Cert.KernelIdeal Cert.KernelIdeal.Glue Cert.KernelIdeal.Layers Cert.KernelIdeal.Bodies
open Cert.LibGatherRows
open Cert.KernelIdeal.Facts₀ Cert.KernelIdeal.Facts

/-- THE BRIDGE: the kernel's composed value is the reference's last stage, as functions of the seven arguments. -/
theorem kernelValue_eq (a0 : FVec Ideal S50000x256 .f32) (a1 : FVec Ideal S256x128 .f32) (a2 : FVec Ideal S128 .f32)
    (a3 : FVec Ideal S128x64 .f32) (a4 : FVec Ideal S64 .f32) (a5 a6 : IVec S800000 32) :
    kernelValue a0 a1 a2 a3 a4 a5 a6 = Cert.ReferenceIdeal.Read.val_main_v67 (F := Ideal) a0 a1 a2 a3 a4 a5 a6 := by
  have h1 : aggregate128 a5 a6 (scaledProduct0 a0 a1 (column (degreeNorm a5))) = Cert.ReferenceIdeal.Read.val_main_v33 (F := Ideal) a0 a1 a5 a6 := by
    unfold aggregate128
    rw [messages1]
    rfl
  have h2 : aggregate64 a5 a6
      (scaledHidden1 (Cert.ReferenceIdeal.Read.val_main_v33 (F := Ideal) a0 a1 a5 a6) (column (degreeNorm a6))
        (shapeCast S1x128 a2 shapeCasts_S128_S1x128) a3 (column (degreeNorm a5)))
      = Cert.ReferenceIdeal.Read.val_main_v61 (F := Ideal) a0 a1 a2 a3 a5 a6 := by
    unfold aggregate64
    rw [messages2]
    rfl
  unfold kernelValue
  rw [h1, h2, output3]
  rfl

end Cert.Bridge

end
-- ==== Proof.lean ====
/-
  A two-layer graph convolution: out = D_in^(-1/2) · A · D_out^(-1/2) · (relu(D_in^(-1/2) · A · D_out^(-1/2) · (X W1) + b1) W2) + b2,
  with A the edge list's adjacency (rows taken at src, added up at dst) and the degree norms rsqrt(max(deg, 1)).
  The kernel runs three grid-pipelined calls — (X W1) scaled by the source norm; relu(agg · destination norm + b1) W2
  scaled by the source norm; agg · destination norm + b2 — with the row-taking and the scatter-adds on the host between
  them; the reference is one host program that multiplies by the source norm after taking rows. On the extended reals
  the two are the same function of the seven arguments: the three calls' output arrays are read off the run as whole
  arrays (ten row blocks tile each), the host stretches are read operation by operation, and taking rows commutes with
  the row-wise scaling because the table and the norm vector are read at the same clamped row. No law of arithmetic
  that could fail at an infinity is used, so the precondition is never opened. The three frame claims are the
  generated frames; the ideal pass rewrote nothing, so the preservation claim is trivial.
-/
import proofs.«162312_j31576599560550_2_alg».proof.Defs
import proofs.«162312_j31576599560550_2_alg».proof.Proof.Gen.Kernel
import proofs.«162312_j31576599560550_2_alg».proof.Proof.Gen.Kernel.Skeleton
import proofs.«162312_j31576599560550_2_alg».proof.Proof.Gen.Kernel.Launch
import proofs.«162312_j31576599560550_2_alg».proof.Proof.Gen.Kernel.Points
import proofs.«162312_j31576599560550_2_alg».proof.Proof.Gen.Kernel.Frame
import proofs.«162312_j31576599560550_2_alg».proof.Proof.Gen.KernelIdeal
import proofs.«162312_j31576599560550_2_alg».proof.Proof.Gen.KernelIdeal.Skeleton
import proofs.«162312_j31576599560550_2_alg».proof.Proof.Gen.KernelIdeal.Launch
import proofs.«162312_j31576599560550_2_alg».proof.Proof.Gen.KernelIdeal.Points
import proofs.«162312_j31576599560550_2_alg».proof.Proof.Gen.KernelIdeal.Frame
import proofs.«162312_j31576599560550_2_alg».proof.Proof.Gen.ReferenceIdeal
import proofs.«162312_j31576599560550_2_alg».proof.Proof.Gen.ReferenceIdeal.Run
import proofs.«162312_j31576599560550_2_alg».proof.Proof.Gen.ReferenceIdeal.Read
import proofs.«162312_j31576599560550_2_alg».proof.Proof.Gen.Pre_finite_inputs
import proofs.«162312_j31576599560550_2_alg».proof.Proof.Value
import proofs.«162312_j31576599560550_2_alg».proof.Proof.BridgeC
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the three layers composed, of arguments that agree. -/
theorem algebraic : Cert.algebraic_KernelIdeal_ReferenceIdeal := by
  intro m ρ m' ρ' _ hagree
  refine ⟨fun c => Cert.Bridge.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Whole.result_value m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v67_eq, (hagree c).1, (hagree c).2.1, (hagree c).2.2.1, (hagree c).2.2.2.1,
      (hagree c).2.2.2.2.1, (hagree c).2.2.2.2.2.1, (hagree c).2.2.2.2.2.2]
    exact (Cert.Bridge.kernelValue_eq _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
